-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : IVec S11008x4096 32) (main_arg3 : IVec S4096x11008 32) (main_arg4 : FVec F S11008 .f32) (main_arg5 : FVec F S11008 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg4
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg5
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S8192x4096 : Shape := ⟨2, ![8192, 4096]⟩
abbrev S11008x1 : Shape := ⟨2, ![11008, 1]⟩
abbrev S4096x1 : Shape := ⟨2, ![4096, 1]⟩
abbrev S8192x11008 : Shape := ⟨2, ![8192, 11008]⟩
abbrev S512x4096 : Shape := ⟨2, ![512, 4096]⟩
abbrev S256x4096 : Shape := ⟨2, ![256, 4096]⟩
abbrev S512x256 : Shape := ⟨2, ![512, 256]⟩
abbrev S256x11008 : Shape := ⟨2, ![256, 11008]⟩
abbrev S512x11008 : Shape := ⟨2, ![512, 11008]⟩
abbrev S256x512 : Shape := ⟨2, ![256, 512]⟩

abbrev nBuf : Space → Nat
  | .hbm => 26
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S8192x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S11008x4096, .bf16⟩
  | .hbm, ⟨13, _⟩ => ⟨S11008x4096, .f32⟩
  | .hbm, ⟨14, _⟩ => ⟨S11008x1, .f32⟩
  | .hbm, ⟨15, _⟩ => ⟨S11008x4096, .f32⟩
  | .hbm, ⟨16, _⟩ => ⟨S11008x4096, .f32⟩
  | .hbm, ⟨17, _⟩ => ⟨S11008x4096, .bf16⟩
  | .hbm, ⟨18, _⟩ => ⟨S4096x11008, .f32⟩
  | .hbm, ⟨19, _⟩ => ⟨S4096x1, .f32⟩
  | .hbm, ⟨20, _⟩ => ⟨S4096x11008, .f32⟩
  | .hbm, ⟨21, _⟩ => ⟨S4096x11008, .f32⟩
  | .hbm, ⟨22, _⟩ => ⟨S4096x11008, .bf16⟩
  | .hbm, ⟨23, _⟩ => ⟨S8192x11008, .bf16⟩
  | .hbm, ⟨24, _⟩ => ⟨S8192x4096, .f32⟩
  | .hbm, ⟨25, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S512x256, .bf16⟩
  | .local _ .vmem, ⟨7, _⟩ => ⟨S512x256, .bf16⟩
  | .local _ .vmem, ⟨8, _⟩ => ⟨S256x11008, .bf16⟩
  | .local _ .vmem, ⟨9, _⟩ => ⟨S256x11008, .bf16⟩
  | .local _ .vmem, ⟨10, _⟩ => ⟨S512x11008, .bf16⟩
  | .local _ .vmem, ⟨11, _⟩ => ⟨S512x11008, .bf16⟩
  | .local _ .vmem, ⟨12, _⟩ => ⟨S256x512, .f32⟩
  | .local _ .vmem, ⟨13, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x4096_S8192x4096 : S4x2048x4096.ShapeCasts S8192x4096
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bitsLt_bf16_f32 : FTy.bits .bf16 < FTy.bits .f32
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x512_S256x512_0_0 : ∀ a, (![0, 0] : Fin 2 → Nat) a + S256x512.size a ≤ S256x512.size a
  h_S256x512 : 0 < S256x512.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S256x11008_S512x11008_S256x512_1_1_0_0_n_n_wf : DotDims.WF S256x11008 S512x11008 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .bf16 = 32 ∨ (Rect.block (s := S8192x11008) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S8192x11008.size a
  hwx1_0 : ∀ i : grid1.Coords, EltTy.bits .bf16 = 32 ∨ (Rect.block (s := S8192x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x11008.size a ≤ S4096x11008.size a
  hwx1_1 : ∀ i : grid1.Coords, EltTy.bits .bf16 = 32 ∨ (Rect.block (s := S4096x11008) S512x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x4096.size a
  hwx1_2 : ∀ i : grid1.Coords, EltTy.bits .f32 = 32 ∨ (Rect.block (s := S8192x4096) S256x512.size (cc1_transform_2 i) (hinb1_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S256x11008_S512x11008_S256x512_1_1_0_0_n_n : DotDims S256x11008 S512x11008 S256x512 where
  lhsContracting := [1]
  rhsContracting := [1]
  lhsNonContracting := [0]
  rhsNonContracting := [0]
  lhsBatch := []
  rhsBatch := []
  wf := dot_S256x11008_S512x11008_S256x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S256x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S512x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S11008x1 : Shape := ⟨2, ![11008, 1]⟩
abbrev S4096x1 : Shape := ⟨2, ![4096, 1]⟩
abbrev S4x2048x11008 : Shape := ⟨3, ![4, 2048, 11008]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S11008x4096, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x1, .f32⟩
  | .hbm, ⟨13, _⟩ => ⟨S11008x4096, .f32⟩
  | .hbm, ⟨14, _⟩ => ⟨S11008x4096, .f32⟩
  | .hbm, ⟨15, _⟩ => ⟨S4096x11008, .f32⟩
  | .hbm, ⟨16, _⟩ => ⟨S4096x1, .f32⟩
  | .hbm, ⟨17, _⟩ => ⟨S4096x11008, .f32⟩
  | .hbm, ⟨18, _⟩ => ⟨S4096x11008, .f32⟩
  | .hbm, ⟨19, _⟩ => ⟨S4x2048x11008, .f32⟩
  | .hbm, ⟨20, _⟩ => ⟨S4x2048x11008, .f32⟩
  | .hbm, ⟨21, _⟩ => ⟨S4x2048x11008, .f32⟩
  | .hbm, ⟨22, _⟩ => ⟨S_, .f32⟩
  | .hbm, ⟨23, _⟩ => ⟨S4x2048x11008, .f32⟩
  | .hbm, ⟨24, _⟩ => ⟨S4x2048x11008, .f32⟩
  | .hbm, ⟨25, _⟩ => ⟨S_, .f32⟩
  | .hbm, ⟨26, _⟩ => ⟨S4x2048x11008, .f32⟩
  | .hbm, ⟨27, _⟩ => ⟨S4x2048x11008, .f32⟩
  | .hbm, ⟨28, _⟩ => ⟨S4x2048x11008, .f32⟩
  | .hbm, ⟨29, _⟩ => ⟨S4x2048x11008, .f32⟩
  | .hbm, ⟨30, _⟩ => ⟨S4x2048x11008, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.KernelRun.lean ====
/-
  The whole program's run, stated once for any conclusion: the program is four segments — the host operations that
  reshape the input and dequantize the three weight matrices, the gate/up region, the down region, and the closing
  reshape — and every weakly fair execution ends with every unscoped buffer of a core holding the contents the
  segments' fold `W4` gives it. Whatever follows from that holds of every final state.
-/
import proofs.«117591_j30906584662311_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a state whose unscoped buffers are the last
    boundary's contents; so any `Q` those contents imply holds at the end. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

end Cert.KernelIdeal.Whole

end
-- ==== Proof.Spec.lean ====
/-
  The mathematics both programs compute, on the extended reals. A gated feed-forward layer: for activations x (rows by
  in-features), two projection matrices gw, uw (hidden by in-features) and an output matrix dw (out-features by hidden),

      hidden(r, i) = silu(Σ_k x(r,k)·gw(i,k)) · (Σ_k x(r,k)·uw(i,k)),      out(r, h) = Σ_i hidden(r, i)·dw(h, i),

  where silu(g) = g · logistic(g) and logistic(g) = 1 / (1 + e^(-g)). Every weight matrix is contracted along its SECOND
  axis (a product with the transpose), so one definition, `proj`, serves all three products.
-/
import Idealize.ShloMosaic.PureOps.Ideal
import Idealize.ShloMosaic.Lib.ValueIdx

noncomputable section

namespace Cert.Mlp

open Idealize.ShloMosaic Idealize.ShloMosaic.ValueIdx

/-- The gate: silu of the first projection times the second, in the order both programs multiply. -/
def gated (g u : EReal) : EReal := (g * Ideal.logistic g) * u

/-- A product with a transposed matrix: entry `(r, n)` is the sum over `k` of `x(r, k) · w(n, k)`. -/
def proj {R K N : ℕ} (X : (⟨2, ![R, K]⟩ : Shape).Idx → EReal) (W : (⟨2, ![N, K]⟩ : Shape).Idx → EReal) :
    (⟨2, ![R, N]⟩ : Shape).Idx → EReal :=
  fun i => ∑ k : Fin K, X (ix2 ⟨(i 0).val, idx2_lt0 i⟩ k) * W (ix2 ⟨(i 1).val, idx2_lt1 i⟩ k)

theorem proj_ix2 {R K N : ℕ} (X : (⟨2, ![R, K]⟩ : Shape).Idx → EReal) (W : (⟨2, ![N, K]⟩ : Shape).Idx → EReal)
    (r : Fin R) (n : Fin N) : proj X W (ix2 r n) = ∑ k : Fin K, X (ix2 r k) * W (ix2 n k) := rfl

/-- The hidden layer: the gate of the two projections, entry by entry. -/
def hidden {R K N : ℕ} (X : (⟨2, ![R, K]⟩ : Shape).Idx → EReal) (GW UW : (⟨2, ![N, K]⟩ : Shape).Idx → EReal) :
    (⟨2, ![R, N]⟩ : Shape).Idx → EReal :=
  fun i => gated (proj X GW i) (proj X UW i)

theorem hidden_ix2 {R K N : ℕ} (X : (⟨2, ![R, K]⟩ : Shape).Idx → EReal) (GW UW : (⟨2, ![N, K]⟩ : Shape).Idx → EReal)
    (r : Fin R) (n : Fin N) :
    hidden X GW UW (ix2 r n) = gated (∑ k : Fin K, X (ix2 r k) * GW (ix2 n k)) (∑ k : Fin K, X (ix2 r k) * UW (ix2 n k)) := rfl

/-- The layer on a matrix of rows. -/
def layer {R K N H : ℕ} (X : (⟨2, ![R, K]⟩ : Shape).Idx → EReal) (GW UW : (⟨2, ![N, K]⟩ : Shape).Idx → EReal)
    (DW : (⟨2, ![H, N]⟩ : Shape).Idx → EReal) : (⟨2, ![R, H]⟩ : Shape).Idx → EReal :=
  proj (hidden X GW UW) DW

/-- The layer on a batch of sequences, as the reference spells it: entry `(b, s, h)` from row `(b, s, ·)` of the input. -/
def layer3 {B S K N H : ℕ} (X : (⟨3, ![B, S, K]⟩ : Shape).Idx → EReal) (GW UW : (⟨2, ![N, K]⟩ : Shape).Idx → EReal)
    (DW : (⟨2, ![H, N]⟩ : Shape).Idx → EReal) (b : Fin B) (s : Fin S) (h : Fin H) : EReal :=
  ∑ i : Fin N, gated (∑ k : Fin K, X (ix3 b s k) * GW (ix2 i k)) (∑ k : Fin K, X (ix3 b s k) * UW (ix2 i k)) * DW (ix2 h i)

/-- The matrix form on the flattened rows IS the batched form: row `r = b · S + s` of the flattened input is row `(b, s)`. -/
theorem layer_eq_layer3 {B S K N H R : ℕ} (X : (⟨3, ![B, S, K]⟩ : Shape).Idx → EReal) (X2 : (⟨2, ![R, K]⟩ : Shape).Idx → EReal)
    (GW UW : (⟨2, ![N, K]⟩ : Shape).Idx → EReal) (DW : (⟨2, ![H, N]⟩ : Shape).Idx → EReal)
    (b : Fin B) (s : Fin S) (h : Fin H) (r : Fin R) (hX : ∀ k : Fin K, X2 (ix2 r k) = X (ix3 b s k)) :
    layer X2 GW UW DW (ix2 r h) = layer3 X GW UW DW b s h := by
  unfold layer layer3
  rw [proj_ix2]
  refine Finset.sum_congr rfl fun i _ => ?_
  rw [hidden_ix2]
  simp only [hX]

end Cert.Mlp

end
-- ==== Proof.Region0.lean ====
/-
  The gate/up region, read as one whole-array function. Grid point (i, j) loads rows 512·i … of the flattened input
  (all 4096 in-features) and rows 256·j … of the two hidden-by-in-features weight matrices, and stores the 512×256 tile
  silu(x·gwᵀ) · (x·uwᵀ). Entry (p, q) of that tile depends on row p of the input block and row q of each weight block
  only, so the tile is block (i, j) of the hidden layer of the WHOLE arrays; the 16×43 tiles fill the array.
-/
import proofs.«117591_j30906584662311_2_alg».proof.Proof.Gen.KernelIdeal.Frame
import proofs.«117591_j30906584662311_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.GateUp

open Cert.KernelIdeal Cert.KernelIdeal.Gen Cert.Mlp
open Idealize.ShloMosaic Idealize.ShloMosaic.TcCoe Idealize.ShloMosaic.ValueIdx Idealize.SL.Sem
open Idealize.ShloMosaic.Pipeline (Dat)

/-! ## The tile's arithmetic at an entry -/

theorem lhs_row (p : Fin 512) (q : Fin 256) (kk : dot_S512x4096_S256x4096_S512x256_1_1_0_0_n_n.contr.Idx) :
    (dot_S512x4096_S256x4096_S512x256_1_1_0_0_n_n.lhsIdx (ix2 p q) kk 0).val = p.val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl

theorem rhs_row (p : Fin 512) (q : Fin 256) (kk : dot_S512x4096_S256x4096_S512x256_1_1_0_0_n_n.contr.Idx) :
    (dot_S512x4096_S256x4096_S512x256_1_1_0_0_n_n.rhsIdx (ix2 p q) kk 0).val = q.val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

/-- A product with the transposed weight block into a zero accumulator: entry (p, q) is Σ_k a(p,k)·b(q,k). -/
theorem matmul_at (a : S512x4096.Idx → EReal) (b : S256x4096.Idx → EReal) (p : Fin 512) (q : Fin 256) :
    matmul (F := Ideal) (φ₁ := .bf16) (φ₂ := .bf16) dot_S512x4096_S256x4096_S512x256_1_1_0_0_n_n none a b (constant S512x256 .f32 0x00000000#32) (ix2 p q)
      = ∑ k : Fin 4096, a (ix2 p k) * b (ix2 q k) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun ax => Fin.ext (by
    match ax with
    | ⟨0, _⟩ => exact lhs_row p q _
    | ⟨1, _⟩ => exact (dot_S512x4096_S256x4096_S512x256_1_1_0_0_n_n.lhsIdx_val_of_single rfl _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun ax => Fin.ext (by
    match ax with
    | ⟨0, _⟩ => exact rhs_row p q _
    | ⟨1, _⟩ => exact (dot_S512x4096_S256x4096_S512x256_1_1_0_0_n_n.rhsIdx_val_of_single rfl _ _).trans hk)
  rw [el, er]

/-- The stored tile at entry (p, q): the gate of the two row products (a change of float format is the identity). -/
theorem pay_at (x0 : S512x4096.Idx → EReal) (x1 x2 : S256x4096.Idx → EReal) (p : Fin 512) (q : Fin 256) :
    k0_pay1 (F := Ideal) x0 x1 x2 (ix2 p q)
      = gated (∑ k : Fin 4096, x0 (ix2 p k) * x1 (ix2 q k)) (∑ k : Fin 4096, x0 (ix2 p k) * x2 (ix2 q k)) := by
  unfold k0_pay1
  simp only [shapeCast_self]
  refine Eq.trans (b := gated
    (matmul (F := Ideal) (φ₁ := .bf16) (φ₂ := .bf16) dot_S512x4096_S256x4096_S512x256_1_1_0_0_n_n none x0 x1 (constant S512x256 .f32 0x00000000#32) (ix2 p q))
    (matmul (F := Ideal) (φ₁ := .bf16) (φ₂ := .bf16) dot_S512x4096_S256x4096_S512x256_1_1_0_0_n_n none x0 x2 (constant S512x256 .f32 0x00000000#32) (ix2 p q))) rfl ?_
  rw [matmul_at, matmul_at]

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's row block is the output's, the weights' row block is the output's column
    block, every lane block is block 0, and the output's block indices stay inside 16 × 43. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 15 ∧ win0_3.index t (1 : Fin 2) ≤ 42 :=
  (by decide +kernel : ∀ t : Fin grid0.N, _)

/-- The output's block index in closed form: point `t` is tile (t / 43, t % 43), the grid being walked row by row. -/
theorem idx_closed : ∀ t : Fin cfg0.N,
    win0_3.index t (0 : Fin 2) = t.val / 43 ∧ win0_3.index t (1 : Fin 2) = t.val % 43 :=
  (by decide +kernel : ∀ t : Fin grid0.N, _)

/-- What grid point `t` writes back is tile `t` of the hidden layer of the whole arrays as the region finds them. -/
theorem flushed_eq (c : Dev nD) (t : Fin cfg0.N) :
    (dat0 V c).flushed 3 t = ((cfg0.win 3).blk t).view.read (Elt Ideal)
      (hidden (R := 8192) (K := 4096) (N := 11008) (V c main_v0) (V c main_v5) (V c main_v10)) := by
  show (cfg0.win 3).cut (grid0.coords t) ((dat0 V c).after 3 t) = _
  rw [after0_3]
  unfold out0_3
  rw [View.canon_unit_zero hz]
  simp only [View.ld_unit_zero (S := S512x4096) hz, View.ld_unit_zero (S := S256x4096) hz]
  obtain ⟨e0, e1, e2, e3, e4, e5, b0, b1⟩ := idx_facts t
  funext j
  obtain ⟨p, q, rfl⟩ : ∃ (p : Fin 512) (q : Fin 256), j = ix2 p q := ⟨j 0, j 1, eq_ix2 j⟩
  refine Eq.trans (b := k0_pay1 (F := Ideal) (iblk0 V c 0 t) (iblk0 V c 1 t) (iblk0 V c 2 t) (ix2 p q)) rfl ?_
  refine (pay_at (iblk0 V c 0 t) (iblk0 V c 1 t) (iblk0 V c 2 t) p q).trans ?_
  have hr : win0_3.index t (0 : Fin 2) * 512 + p.val < 8192 := by have := p.isLt; omega
  have hn : win0_3.index t (1 : Fin 2) * 256 + q.val < 11008 := by have := q.isLt; omega
  have h3 : ((cfg0.win 3).blk t).view.emb (ix2 p q) = ix2 (⟨_, hr⟩ : Fin 8192) (⟨_, hn⟩ : Fin 11008) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 256 + 1 * q.val = win0_3.index t (1 : Fin 2) * 256 + q.val; omega
  rw [View.read_apply, h3, hidden_ix2]
  have h0 : ∀ k : Fin 4096, ((cfg0.win 0).blk t).view.emb (ix2 p k) = ix2 (⟨_, hr⟩ : Fin 8192) k := fun k => by
    funext a; apply Fin.ext
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  have h1 : ∀ k : Fin 4096, ((cfg0.win 1).blk t).view.emb (ix2 q k) = ix2 (⟨_, hn⟩ : Fin 11008) k := fun k => by
    funext a; apply Fin.ext
    match a with
    | ⟨0, _⟩ => show win0_1.index t (0 : Fin 2) * 256 + 1 * q.val = win0_3.index t (1 : Fin 2) * 256 + q.val; omega
    | ⟨1, _⟩ => show win0_1.index t (1 : Fin 2) * 4096 + 1 * k.val = k.val; omega
  have h2 : ∀ k : Fin 4096, ((cfg0.win 2).blk t).view.emb (ix2 q k) = ix2 (⟨_, hn⟩ : Fin 11008) k := fun k => by
    funext a; apply Fin.ext
    match a with
    | ⟨0, _⟩ => show win0_2.index t (0 : Fin 2) * 256 + 1 * q.val = win0_3.index t (1 : Fin 2) * 256 + q.val; omega
    | ⟨1, _⟩ => show win0_2.index t (1 : Fin 2) * 4096 + 1 * k.val = k.val; omega
  refine congrArg₂ gated (Finset.sum_congr rfl fun k _ => ?_) (Finset.sum_congr rfl fun k _ => ?_)
  · exact (fun (X : S8192x4096.Idx → EReal) (W : S11008x4096.Idx → EReal) =>
      (show X (((cfg0.win 0).blk t).view.emb (ix2 p k)) * W (((cfg0.win 1).blk t).view.emb (ix2 q k))
          = X (ix2 (⟨_, hr⟩ : Fin 8192) k) * W (ix2 (⟨_, hn⟩ : Fin 11008) k) by rw [h0, h1])) (V c main_v0) (V c main_v5)
  · exact (fun (X : S8192x4096.Idx → EReal) (W : S11008x4096.Idx → EReal) =>
      (show X (((cfg0.win 0).blk t).view.emb (ix2 p k)) * W (((cfg0.win 2).blk t).view.emb (ix2 q k))
          = X (ix2 (⟨_, hr⟩ : Fin 8192) k) * W (ix2 (⟨_, hn⟩ : Fin 11008) k) by rw [h0, h2])) (V c main_v0) (V c main_v10)

/-- An entry of the array lies in point `t`'s tile iff each coordinate lies in the tile's range on its axis. -/
theorem mem_blk (t : Fin cfg0.N) (i : S8192x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v16).slice (win0_3.rect t)).set ↔ _
  rw [View.set_slice_whole, Rect.mem_set_unit]
  exact Iff.rfl

/-- The tiles fill the array: entry (r, n) lies in tile (r / 512, n / 256), which is point 43 · (r / 512) + n / 256. -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  have hN : (i 0).val / 512 * 43 + (i 1).val / 256 < cfg0.N := lt_of_lt_of_eq (by omega) N_0.symm
  obtain ⟨q0, q1⟩ := idx_closed ⟨_, hN⟩
  refine ⟨⟨_, hN⟩, flush0_3 _, ?_⟩
  rw [mem_blk]
  intro a
  match a with
  | ⟨0, _⟩ =>
    show win0_3.index ⟨_, hN⟩ (0 : Fin 2) * 512 ≤ (i 0).val ∧ (i 0).val < win0_3.index ⟨_, hN⟩ (0 : Fin 2) * 512 + 512
    rw [q0]; show ((i 0).val / 512 * 43 + (i 1).val / 256) / 43 * 512 ≤ (i 0).val ∧ (i 0).val < ((i 0).val / 512 * 43 + (i 1).val / 256) / 43 * 512 + 512
    omega
  | ⟨1, _⟩ =>
    show win0_3.index ⟨_, hN⟩ (1 : Fin 2) * 256 ≤ (i 1).val ∧ (i 1).val < win0_3.index ⟨_, hN⟩ (1 : Fin 2) * 256 + 256
    rw [q1]; show ((i 0).val / 512 * 43 + (i 1).val / 256) % 43 * 256 ≤ (i 1).val ∧ (i 1).val < ((i 0).val / 512 * 43 + (i 1).val / 256) % 43 * 256 + 256
    omega

/-- The region's output array after its last point: the hidden layer of the arrays the region was entered with. -/
theorem final (c : Dev nD) :
    (dat0 V c).arrAt 3 cfg0.N = hidden (R := 8192) (K := 4096) (N := 11008) (V c main_v0) (V c main_v5) (V c main_v10) :=
  (dat0 V c).arrAt_eq_of_cover 3 _ (fun t _ => flushed_eq V c t) cover

end Cert.KernelIdeal.GateUp

end
-- ==== Proof.Region1.lean ====
/-
  The down region, read as one whole-array function. Grid point (j, i) loads rows 256·i … of the hidden layer (all 11008
  hidden features) and rows 512·j … of the out-features-by-hidden weight matrix, and stores the 256×512 tile of their
  product with the weight block transposed. Entry (p, q) of the tile depends on row p of the hidden block and row q of
  the weight block only, so the tile is block (i, j) of the product of the WHOLE arrays; the 32×8 tiles fill the array.
-/
import proofs.«117591_j30906584662311_2_alg».proof.Proof.Gen.KernelIdeal.Frame
import proofs.«117591_j30906584662311_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Down

open Cert.KernelIdeal Cert.KernelIdeal.Gen Cert.Mlp
open Idealize.ShloMosaic Idealize.ShloMosaic.TcCoe Idealize.ShloMosaic.ValueIdx Idealize.SL.Sem
open Idealize.ShloMosaic.Pipeline (Dat)

/-! ## The tile's arithmetic at an entry -/

theorem lhs_row (p : Fin 256) (q : Fin 512) (kk : dot_S256x11008_S512x11008_S256x512_1_1_0_0_n_n.contr.Idx) :
    (dot_S256x11008_S512x11008_S256x512_1_1_0_0_n_n.lhsIdx (ix2 p q) kk 0).val = p.val := by
  unfold DotDims.lhsIdx
  rw [dif_neg (show ¬(0 : Fin S256x11008.rank) ∈ dot_S256x11008_S512x11008_S256x512_1_1_0_0_n_n.lhsBatch by decide), dif_pos (show (0 : Fin S256x11008.rank) ∈ dot_S256x11008_S512x11008_S256x512_1_1_0_0_n_n.lhsNonContracting by decide)]
  rfl

theorem rhs_row (p : Fin 256) (q : Fin 512) (kk : dot_S256x11008_S512x11008_S256x512_1_1_0_0_n_n.contr.Idx) :
    (dot_S256x11008_S512x11008_S256x512_1_1_0_0_n_n.rhsIdx (ix2 p q) kk 0).val = q.val := by
  unfold DotDims.rhsIdx
  rw [dif_neg (show ¬(0 : Fin S512x11008.rank) ∈ dot_S256x11008_S512x11008_S256x512_1_1_0_0_n_n.rhsBatch by decide), dif_pos (show (0 : Fin S512x11008.rank) ∈ dot_S256x11008_S512x11008_S256x512_1_1_0_0_n_n.rhsNonContracting by decide)]
  rfl

/-- A product with the transposed weight block into a zero accumulator: entry (p, q) is Σ_k a(p,k)·b(q,k). -/
theorem matmul_at (a : S256x11008.Idx → EReal) (b : S512x11008.Idx → EReal) (p : Fin 256) (q : Fin 512) :
    matmul (F := Ideal) (φ₁ := .bf16) (φ₂ := .bf16) dot_S256x11008_S512x11008_S256x512_1_1_0_0_n_n none a b (constant S256x512 .f32 0x00000000#32) (ix2 p q)
      = ∑ k : Fin 11008, a (ix2 p k) * b (ix2 q k) := by
  simp only [matmul]
  rw [Ideal.matmul_constant_zero_apply, ← Equiv.sum_comp (contrEquiv1 dot_S256x11008_S512x11008_S256x512_1_1_0_0_n_n 11008 rfl rfl).symm]
  refine Finset.sum_congr rfl fun k _ => ?_
  have hk := contrEquiv1_symm_val dot_S256x11008_S512x11008_S256x512_1_1_0_0_n_n 11008 rfl rfl k
  have el : dot_S256x11008_S512x11008_S256x512_1_1_0_0_n_n.lhsIdx (ix2 p q) ((contrEquiv1 dot_S256x11008_S512x11008_S256x512_1_1_0_0_n_n 11008 rfl rfl).symm k) = ix2 p k := funext fun ax => Fin.ext (by
    match ax with
    | ⟨0, _⟩ => exact lhs_row p q _
    | ⟨1, _⟩ => exact (dot_S256x11008_S512x11008_S256x512_1_1_0_0_n_n.lhsIdx_val_of_single rfl _ _).trans hk)
  have er : dot_S256x11008_S512x11008_S256x512_1_1_0_0_n_n.rhsIdx (ix2 p q) ((contrEquiv1 dot_S256x11008_S512x11008_S256x512_1_1_0_0_n_n 11008 rfl rfl).symm k) = ix2 q k := funext fun ax => Fin.ext (by
    match ax with
    | ⟨0, _⟩ => exact rhs_row p q _
    | ⟨1, _⟩ => exact (dot_S256x11008_S512x11008_S256x512_1_1_0_0_n_n.rhsIdx_val_of_single rfl _ _).trans hk)
  rw [el, er]

/-- The stored tile at entry (p, q): the row product. -/
theorem pay_at (x0 : S256x11008.Idx → EReal) (x1 : S512x11008.Idx → EReal) (p : Fin 256) (q : Fin 512) :
    k1_pay1 (F := Ideal) x0 x1 (ix2 p q) = ∑ k : Fin 11008, x0 (ix2 p k) * x1 (ix2 q k) := by
  unfold k1_pay1
  simp only [shapeCast_self]
  exact matmul_at x0 x1 p q

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the hidden layer's row block is the output's row block, the weight's row block is the
    output's column block, every lane block is block 0; and in closed form point `t` is tile (t % 32, t / 32). -/
theorem idx_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) = t.val % 32 ∧ win1_2.index t (1 : Fin 2) = t.val / 32 :=
  (by decide +kernel : ∀ t : Fin grid1.N, _)

/-- What grid point `t` writes back is tile `t` of the product of the whole arrays as the region finds them. -/
theorem flushed_eq (c : Dev nD) (t : Fin cfg1.N) :
    (dat1 V c).flushed 2 t = ((cfg1.win 2).blk t).view.read (Elt Ideal)
      (proj (R := 8192) (K := 11008) (N := 4096) (V c main_v16) (V c main_v15)) := by
  show (cfg1.win 2).cut (grid1.coords t) ((dat1 V c).after 2 t) = _
  rw [after1_2]
  unfold out1_2
  rw [View.canon_unit_zero hz]
  simp only [View.ld_unit_zero (S := S256x11008) hz, View.ld_unit_zero (S := S512x11008) hz]
  obtain ⟨e0, e1, e2, e3, c0, c1⟩ := idx_facts t
  have ht : t.val < 256 := lt_of_lt_of_eq t.isLt N_1
  funext j
  obtain ⟨p, q, rfl⟩ : ∃ (p : Fin 256) (q : Fin 512), j = ix2 p q := ⟨j 0, j 1, eq_ix2 j⟩
  refine Eq.trans (b := k1_pay1 (F := Ideal) (iblk1 V c 0 t) (iblk1 V c 1 t) (ix2 p q)) rfl ?_
  refine (pay_at (iblk1 V c 0 t) (iblk1 V c 1 t) p q).trans ?_
  have hr : win1_2.index t (0 : Fin 2) * 256 + p.val < 8192 := by have := p.isLt; omega
  have hn : win1_2.index t (1 : Fin 2) * 512 + q.val < 4096 := by have := q.isLt; omega
  have h2 : ((cfg1.win 2).blk t).view.emb (ix2 p q) = ix2 (⟨_, hr⟩ : Fin 8192) (⟨_, hn⟩ : Fin 4096) := by
    funext a; apply Fin.ext
    match a with
    | ⟨0, _⟩ => show win1_2.index t (0 : Fin 2) * 256 + 1 * p.val = win1_2.index t (0 : Fin 2) * 256 + p.val; omega
    | ⟨1, _⟩ => show win1_2.index t (1 : Fin 2) * 512 + 1 * q.val = win1_2.index t (1 : Fin 2) * 512 + q.val; omega
  rw [View.read_apply, h2, proj_ix2]
  have h0 : ∀ k : Fin 11008, ((cfg1.win 0).blk t).view.emb (ix2 p k) = ix2 (⟨_, hr⟩ : Fin 8192) k := fun k => by
    funext a; apply Fin.ext
    match a with
    | ⟨0, _⟩ => show win1_0.index t (0 : Fin 2) * 256 + 1 * p.val = win1_2.index t (0 : Fin 2) * 256 + p.val; omega
    | ⟨1, _⟩ => show win1_0.index t (1 : Fin 2) * 11008 + 1 * k.val = k.val; omega
  have h1 : ∀ k : Fin 11008, ((cfg1.win 1).blk t).view.emb (ix2 q k) = ix2 (⟨_, hn⟩ : Fin 4096) k := fun k => by
    funext a; apply Fin.ext
    match a with
    | ⟨0, _⟩ => show win1_1.index t (0 : Fin 2) * 512 + 1 * q.val = win1_2.index t (1 : Fin 2) * 512 + q.val; omega
    | ⟨1, _⟩ => show win1_1.index t (1 : Fin 2) * 11008 + 1 * k.val = k.val; omega
  refine Finset.sum_congr rfl fun k _ => ?_
  exact (fun (X : S8192x11008.Idx → EReal) (W : S4096x11008.Idx → EReal) =>
    (show X (((cfg1.win 0).blk t).view.emb (ix2 p k)) * W (((cfg1.win 1).blk t).view.emb (ix2 q k))
        = X (ix2 (⟨_, hr⟩ : Fin 8192) k) * W (ix2 (⟨_, hn⟩ : Fin 4096) k) by rw [h0, h1])) (V c main_v16) (V c main_v15)

/-- An entry of the array lies in point `t`'s tile iff each coordinate lies in the tile's range on its axis. -/
theorem mem_blk (t : Fin cfg1.N) (i : S8192x4096.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v17).slice (win1_2.rect t)).set ↔ _
  rw [View.set_slice_whole, Rect.mem_set_unit]
  exact Iff.rfl

/-- The tiles fill the array: entry (r, h) lies in tile (r / 256, h / 512), which is point 32 · (h / 512) + r / 256. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : (i 1).val / 512 * 32 + (i 0).val / 256 < cfg1.N := lt_of_lt_of_eq (by omega) N_1.symm
  obtain ⟨-, -, -, -, q0, q1⟩ := idx_facts ⟨_, hN⟩
  refine ⟨⟨_, hN⟩, flush1_2 _, ?_⟩
  rw [mem_blk]
  intro a
  match a with
  | ⟨0, _⟩ =>
    show win1_2.index ⟨_, hN⟩ (0 : Fin 2) * 256 ≤ (i 0).val ∧ (i 0).val < win1_2.index ⟨_, hN⟩ (0 : Fin 2) * 256 + 256
    rw [q0]; show ((i 1).val / 512 * 32 + (i 0).val / 256) % 32 * 256 ≤ (i 0).val ∧ (i 0).val < ((i 1).val / 512 * 32 + (i 0).val / 256) % 32 * 256 + 256
    omega
  | ⟨1, _⟩ =>
    show win1_2.index ⟨_, hN⟩ (1 : Fin 2) * 512 ≤ (i 1).val ∧ (i 1).val < win1_2.index ⟨_, hN⟩ (1 : Fin 2) * 512 + 512
    rw [q1]; show ((i 1).val / 512 * 32 + (i 0).val / 256) / 32 * 512 ≤ (i 1).val ∧ (i 1).val < ((i 1).val / 512 * 32 + (i 0).val / 256) / 32 * 512 + 512
    omega

/-- The region's output array after its last point: the product of the arrays the region was entered with. -/
theorem final (c : Dev nD) :
    (dat1 V c).arrAt 2 cfg1.N = proj (R := 8192) (K := 11008) (N := 4096) (V c main_v16) (V c main_v15) :=
  (dat1 V c).arrAt_eq_of_cover 2 _ (fun t _ => flushed_eq V c t) cover

end Cert.KernelIdeal.Down

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KernelValue.lean ====
/-
  The kernel's program, read end to end. The host first flattens the input [4, 2048, 4096] to rows [8192, 4096] and
  dequantizes each integer weight matrix (entry (n, k) is the integer at (n, k), as a float, times the scale of row n;
  the change of float format that follows is the identity on the extended reals). The gate/up region then leaves the
  hidden layer of those arrays, the down region its product with the third matrix, and the closing reshape splits the
  rows back into [4, 2048]. Row r = 2048·b + s of the flattened arrays is row (b, s) of the batch, so the result at
  (b, s, h) is the layer applied to row (b, s, ·) of the input.
-/
import proofs.«117591_j30906584662311_2_alg».proof.Proof.Region0
import proofs.«117591_j30906584662311_2_alg».proof.Proof.Region1
import proofs.«117591_j30906584662311_2_alg».proof.Proof.LibLayout
import Idealize.ShloMosaic.Lib.StableHlo.Run

set_option maxRecDepth 16384

noncomputable section

namespace Cert.KernelIdeal.Result

open Cert.KernelIdeal Cert.KernelIdeal.Gen Cert.Mlp
open Idealize.ShloMosaic Idealize.ShloMosaic.TcCoe Idealize.ShloMosaic.ValueIdx Idealize.SL.Sem Idealize.ShloMosaic.StableHlo

section
variable {F : FTy → Type} [FloatOps F]

/-- A hidden-by-in-features weight matrix dequantized: the integer entry as a float times its row's scale. -/
def deqHidden (q : (⟨S11008x4096, .i32⟩ : BufTy).Contents (Elt F)) (s : (⟨S11008, .f32⟩ : BufTy).Contents (Elt F)) : (⟨S11008x4096, .f32⟩ : BufTy).Contents (Elt F) :=
  (mulf : (⟨S11008x4096, .f32⟩ : BufTy).Contents (Elt F) → (⟨S11008x4096, .f32⟩ : BufTy).Contents (Elt F) → (⟨S11008x4096, .f32⟩ : BufTy).Contents (Elt F))
    ((sitofp .f32 : (⟨S11008x4096, .i32⟩ : BufTy).Contents (Elt F) → (⟨S11008x4096, .f32⟩ : BufTy).Contents (Elt F)) q)
    ((broadcastInDim S11008x4096 ![0, 1] bcast_S11008x1_S11008x4096_0_1 : (⟨S11008x1, .f32⟩ : BufTy).Contents (Elt F) → (⟨S11008x4096, .f32⟩ : BufTy).Contents (Elt F))
      ((broadcastInDim S11008x1 ![0] bcast_S11008_S11008x1_0 : (⟨S11008, .f32⟩ : BufTy).Contents (Elt F) → (⟨S11008x1, .f32⟩ : BufTy).Contents (Elt F)) s))

/-- The out-features-by-hidden weight matrix dequantized likewise. -/
def deqOut (q : (⟨S4096x11008, .i32⟩ : BufTy).Contents (Elt F)) (s : (⟨S4096, .f32⟩ : BufTy).Contents (Elt F)) : (⟨S4096x11008, .f32⟩ : BufTy).Contents (Elt F) :=
  (mulf : (⟨S4096x11008, .f32⟩ : BufTy).Contents (Elt F) → (⟨S4096x11008, .f32⟩ : BufTy).Contents (Elt F) → (⟨S4096x11008, .f32⟩ : BufTy).Contents (Elt F))
    ((sitofp .f32 : (⟨S4096x11008, .i32⟩ : BufTy).Contents (Elt F) → (⟨S4096x11008, .f32⟩ : BufTy).Contents (Elt F)) q)
    ((broadcastInDim S4096x11008 ![0, 1] bcast_S4096x1_S4096x11008_0_1 : (⟨S4096x1, .f32⟩ : BufTy).Contents (Elt F) → (⟨S4096x11008, .f32⟩ : BufTy).Contents (Elt F))
      ((broadcastInDim S4096x1 ![0] bcast_S4096_S4096x1_0 : (⟨S4096, .f32⟩ : BufTy).Contents (Elt F) → (⟨S4096x1, .f32⟩ : BufTy).Contents (Elt F)) s))

end

variable (m : (ℓ : Loc nD τ sig) → Buf (Elt Ideal) ℓ) (ρ : Dev nD → PrngReg)

/-! ## The arrays the gate/up region is entered with -/

theorem entry_x (c : Dev nD) :
    V1 m ρ c main_v0 = shapeCast S8192x4096 (m ((c : Thread nD τ).loc main_arg0)) shapeCasts_S4x2048x4096_S8192x4096 := by
  show StableHlo.after hostOps0 (W0 m ρ c) (Proc.devRef .tc main_v0) = _
  after_results; rfl

theorem entry_gw (c : Dev nD) :
    V1 m ρ c main_v5 = deqHidden (F := Ideal) (m ((c : Thread nD τ).loc main_arg1)) (m ((c : Thread nD τ).loc main_arg4)) := by
  show StableHlo.after hostOps0 (W0 m ρ c) (Proc.devRef .tc main_v5) = _
  after_results; rfl

theorem entry_uw (c : Dev nD) :
    V1 m ρ c main_v10 = deqHidden (F := Ideal) (m ((c : Thread nD τ).loc main_arg2)) (m ((c : Thread nD τ).loc main_arg5)) := by
  show StableHlo.after hostOps0 (W0 m ρ c) (Proc.devRef .tc main_v10) = _
  after_results; rfl

theorem entry_dw (c : Dev nD) :
    V1 m ρ c main_v15 = deqOut (F := Ideal) (m ((c : Thread nD τ).loc main_arg3)) (m ((c : Thread nD τ).loc main_arg6)) := by
  show StableHlo.after hostOps0 (W0 m ρ c) (Proc.devRef .tc main_v15) = _
  after_results; rfl

/-! ## Through the two regions -/

/-- The down region is entered with the hidden layer the gate/up region left … -/
theorem mid_hidden (c : Dev nD) :
    V2 m ρ c main_v16 = hidden (R := 8192) (K := 4096) (N := 11008) (V1 m ρ c main_v0) (V1 m ρ c main_v5) (V1 m ρ c main_v10) :=
  (W2_arr m ρ c 3).trans (GateUp.final (V1 m ρ) c)

/-- … and with the third weight matrix as the host left it: the gate/up region does not touch it. -/
theorem mid_dw (c : Dev nD) : V2 m ρ c main_v15 = V1 m ρ c main_v15 :=
  W2_of_ne m ρ c main_v15 (by decide)

theorem out_rows (c : Dev nD) :
    W3 m ρ c (Proc.devRef .tc main_v17)
      = proj (R := 8192) (K := 11008) (N := 4096) (V2 m ρ c main_v16) (V2 m ρ c main_v15) :=
  (W3_arr m ρ c 2).trans (Down.final (V2 m ρ) c)

theorem out_reshaped (c : Dev nD) :
    W4 m ρ c (Proc.devRef .tc main_v18)
      = shapeCast S4x2048x4096 (W3 m ρ c (Proc.devRef .tc main_v17)) shapeCasts_S8192x4096_S4x2048x4096 := by
  show StableHlo.after hostOps2 (W3 m ρ c) (Proc.devRef .tc main_v18) = _
  after_results; rfl

/-! ## The result -/

/-- The program's result array at the end of the run: the layer, entry by entry, of the argument arrays. -/
theorem result (c : Dev nD) :
    W4 m ρ c (Proc.devRef .tc main_v18)
      = fun j : S4x2048x4096.Idx => layer3 (B := 4) (S := 2048) (K := 4096) (N := 11008) (H := 4096)
          (m ((c : Thread nD τ).loc main_arg0))
          (deqHidden (F := Ideal) (m ((c : Thread nD τ).loc main_arg1)) (m ((c : Thread nD τ).loc main_arg4)))
          (deqHidden (F := Ideal) (m ((c : Thread nD τ).loc main_arg2)) (m ((c : Thread nD τ).loc main_arg5)))
          (deqOut (F := Ideal) (m ((c : Thread nD τ).loc main_arg3)) (m ((c : Thread nD τ).loc main_arg6))) (j 0) (j 1) (j 2) := by
  rw [out_reshaped, out_rows, mid_hidden, mid_dw, entry_x, entry_gw, entry_uw, entry_dw]
  funext j
  obtain ⟨b, s, h, rfl⟩ : ∃ (b : Fin 4) (s : Fin 2048) (h : Fin 4096), j = ix3 b s h := ⟨j 0, j 1, j 2, eq_ix3 j⟩
  have hr : b.val * 2048 + s.val < 8192 := by have := b.isLt; have := s.isLt; omega
  refine (Cert.LibLayout.shapeCast_dc_abc_apply _ _ b s h (⟨_, hr⟩ : Fin 8192) rfl).trans ?_
  exact layer_eq_layer3 _ _ _ _ _ b s h (⟨_, hr⟩ : Fin 8192)
    (fun k => Cert.LibLayout.shapeCast_abc_dc_apply _ _ (⟨_, hr⟩ : Fin 8192) k b s rfl)

end Cert.KernelIdeal.Result

end
-- ==== Proof.RefValue.lean ====
/-
  The reference, read at an entry. Its two hidden-layer projections are host dot products contracting the input's last
  axis with each weight matrix's second axis; its silu is spelt g · (1 / (1 + e^(-g))), which on the extended reals is
  g · logistic(g) by the definition of the logistic there; its last product contracts the hidden axis with the second
  axis of the third matrix. So the result at (b, s, h) is the layer applied to row (b, s, ·) of the input.
-/
import proofs.«117591_j30906584662311_2_alg».proof.Proof.Gen.ReferenceIdeal.Read
import proofs.«117591_j30906584662311_2_alg».proof.Proof.Spec
import Idealize.ShloMosaic.Lib.IdealHost

set_option maxRecDepth 16384

noncomputable section

namespace Cert.ReferenceIdeal.RefValue

open Cert.ReferenceIdeal Cert.ReferenceIdeal.Gen Cert.ReferenceIdeal.Read Cert.Mlp
open Idealize.ShloMosaic Idealize.ShloMosaic.TcCoe Idealize.ShloMosaic.ValueIdx Idealize.SL.Sem

/-- The host's spelling of silu at one number: g times the quotient of one by one plus the exponential of minus g. -/
theorem silu_host (G : EReal) :
    FloatOps.mulf (F := Ideal) (φ := .f32) G (FloatOps.hostDivf (FloatOps.ofBits .f32 0x3F800000#32)
      (FloatOps.addf (FloatOps.ofBits .f32 0x3F800000#32) (FloatOps.hostUnary .exp (FloatOps.hostNegf G))))
      = G * Ideal.logistic G := by
  rw [Ideal.ofBits_def, Ideal.ofBits_one_f32]
  rfl

variable (x0 : (⟨S4x2048x4096, .f32⟩ : BufTy).Contents (Elt Ideal))
  (x1 x2 : (⟨S11008x4096, .i32⟩ : BufTy).Contents (Elt Ideal)) (x3 : (⟨S4096x11008, .i32⟩ : BufTy).Contents (Elt Ideal))
  (x4 x5 : (⟨S11008, .f32⟩ : BufTy).Contents (Elt Ideal)) (x6 : (⟨S4096, .f32⟩ : BufTy).Contents (Elt Ideal))

/-- The gate projection at (b, s, i): row (b, s, ·) of the input against row i of the first dequantized matrix. -/
theorem gate_proj_at (b : Fin 4) (s : Fin 2048) (i : Fin 11008) :
    val_main_v12 (F := Ideal) x0 x1 x4 (ix3 b s i)
      = ∑ k : Fin 4096, x0 (ix3 b s k) * (val_main_v3 (F := Ideal) x1 x4) (ix2 i k) := by
  rw [val_main_v12_apply]
  refine Finset.sum_congr rfl fun k _ => ?_
  rw [show lidx_main_v12 (ix3 b s i) k = ix3 b s k from funext fun a => by
        match a with | ⟨0, _⟩ => rfl | ⟨1, _⟩ => rfl | ⟨2, _⟩ => rfl,
      show ridx_main_v12 (ix3 b s i) k = ix2 i k from funext fun a => by
        match a with | ⟨0, _⟩ => rfl | ⟨1, _⟩ => rfl]

/-- The up projection at (b, s, i), against the second dequantized matrix. -/
theorem up_proj_at (b : Fin 4) (s : Fin 2048) (i : Fin 11008) :
    val_main_v14 (F := Ideal) x0 x2 x5 (ix3 b s i)
      = ∑ k : Fin 4096, x0 (ix3 b s k) * (val_main_v7 (F := Ideal) x2 x5) (ix2 i k) := by
  rw [val_main_v14_apply]
  refine Finset.sum_congr rfl fun k _ => ?_
  rw [show lidx_main_v14 (ix3 b s i) k = ix3 b s k from funext fun a => by
        match a with | ⟨0, _⟩ => rfl | ⟨1, _⟩ => rfl | ⟨2, _⟩ => rfl,
      show ridx_main_v14 (ix3 b s i) k = ix2 i k from funext fun a => by
        match a with | ⟨0, _⟩ => rfl | ⟨1, _⟩ => rfl]

/-- The silu of the gate projection at an entry: g · logistic(g). -/
theorem silu_at (j : S4x2048x11008.Idx) :
    val_main_v13 (F := Ideal) x0 x1 x4 j
      = val_main_v12 (F := Ideal) x0 x1 x4 j * Ideal.logistic (val_main_v12 (F := Ideal) x0 x1 x4 j) := by
  rw [val_main_v13_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-- The hidden layer at (b, s, i): the gate of the two projections. -/
theorem hidden_at (b : Fin 4) (s : Fin 2048) (i : Fin 11008) :
    val_main_v15 (F := Ideal) x0 x1 x2 x4 x5 (ix3 b s i)
      = gated (∑ k : Fin 4096, x0 (ix3 b s k) * (val_main_v3 (F := Ideal) x1 x4) (ix2 i k))
          (∑ k : Fin 4096, x0 (ix3 b s k) * (val_main_v7 (F := Ideal) x2 x5) (ix2 i k)) := by
  rw [val_main_v15_apply, silu_at, gate_proj_at, up_proj_at]
  rfl

/-- The reference's result, entry by entry: the layer of the input and the three dequantized matrices. -/
theorem result_eq :
    val_main_v16 (F := Ideal) x0 x1 x2 x3 x4 x5 x6
      = fun j : S4x2048x4096.Idx => layer3 (B := 4) (S := 2048) (K := 4096) (N := 11008) (H := 4096) x0
          (val_main_v3 (F := Ideal) x1 x4) (val_main_v7 (F := Ideal) x2 x5) (val_main_v11 (F := Ideal) x3 x6) (j 0) (j 1) (j 2) := by
  funext j
  obtain ⟨b, s, h, rfl⟩ : ∃ (b : Fin 4) (s : Fin 2048) (h : Fin 4096), j = ix3 b s h := ⟨j 0, j 1, j 2, eq_ix3 j⟩
  rw [val_main_v16_apply]
  unfold layer3
  refine Finset.sum_congr rfl fun i _ => ?_
  rw [show lidx_main_v16 (ix3 b s h) i = ix3 b s i from funext fun a => by
        match a with | ⟨0, _⟩ => rfl | ⟨1, _⟩ => rfl | ⟨2, _⟩ => rfl,
      show ridx_main_v16 (ix3 b s h) i = ix2 h i from funext fun a => by
        match a with | ⟨0, _⟩ => rfl | ⟨1, _⟩ => rfl,
      hidden_at]

end Cert.ReferenceIdeal.RefValue

end
-- ==== Proof.lean ====
/-
  A gated feed-forward layer with integer-quantized weights, as a two-stage tiled kernel against a jnp reference.
  On the extended reals both programs compute, at (b, s, h),

      Σ_i silu(Σ_k x(b,s,k)·gw(i,k)) · (Σ_k x(b,s,k)·uw(i,k)) · dw(h,i),    silu(g) = g · logistic(g),

  with each weight matrix the integer matrix times its per-row scale. The kernel flattens the batch to rows, tiles the
  hidden layer 16×43 and the output 32×8, each tile a full contraction, and rounds to a shorter float format in between
  (the identity here); the reference takes the three contractions whole and spells silu as g · (1 / (1 + e^(-g))), which
  is g · logistic(g) by the definition of the logistic. No law beyond re-indexing is used, so the finiteness of the
  inputs is never opened. The idealization rewrote nothing, so `preserves` has no conjunct.
-/
import proofs.«117591_j30906584662311_2_alg».proof.Defs
import proofs.«117591_j30906584662311_2_alg».proof.Proof.Gen.Kernel
import proofs.«117591_j30906584662311_2_alg».proof.Proof.Gen.Kernel.Frame
import proofs.«117591_j30906584662311_2_alg».proof.Proof.Gen.KernelIdeal
import proofs.«117591_j30906584662311_2_alg».proof.Proof.Gen.KernelIdeal.Frame
import proofs.«117591_j30906584662311_2_alg».proof.Proof.Gen.ReferenceIdeal
import proofs.«117591_j30906584662311_2_alg».proof.Proof.Gen.ReferenceIdeal.Run
import proofs.«117591_j30906584662311_2_alg».proof.Proof.Gen.ReferenceIdeal.Read
import proofs.«117591_j30906584662311_2_alg».proof.Proof.Gen.Pre_finite_inputs
import proofs.«117591_j30906584662311_2_alg».proof.Proof.KernelRun
import proofs.«117591_j30906584662311_2_alg».proof.Proof.KernelValue
import proofs.«117591_j30906584662311_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's dequantized matrices are the reference's: the same operations of the same arguments. -/
theorem deqHidden_eq (q : (⟨Cert.ReferenceIdeal.S11008x4096, .i32⟩ : BufTy).Contents (Elt Ideal)) (s : (⟨Cert.ReferenceIdeal.S11008, .f32⟩ : BufTy).Contents (Elt Ideal)) :
    Cert.ReferenceIdeal.Read.val_main_v3 (F := Ideal) q s = Cert.KernelIdeal.Result.deqHidden (F := Ideal) q s := rfl
theorem deqHidden_eq' (q : (⟨Cert.ReferenceIdeal.S11008x4096, .i32⟩ : BufTy).Contents (Elt Ideal)) (s : (⟨Cert.ReferenceIdeal.S11008, .f32⟩ : BufTy).Contents (Elt Ideal)) :
    Cert.ReferenceIdeal.Read.val_main_v7 (F := Ideal) q s = Cert.KernelIdeal.Result.deqHidden (F := Ideal) q s := rfl
theorem deqOut_eq (q : (⟨Cert.ReferenceIdeal.S4096x11008, .i32⟩ : BufTy).Contents (Elt Ideal)) (s : (⟨Cert.ReferenceIdeal.S4096, .f32⟩ : BufTy).Contents (Elt Ideal)) :
    Cert.ReferenceIdeal.Read.val_main_v11 (F := Ideal) q s = Cert.KernelIdeal.Result.deqOut (F := Ideal) q s := rfl

/-- Both programs end with the layer of the (agreeing) arguments in their result arrays. -/
theorem algebraic : Cert.algebraic_KernelIdeal_ReferenceIdeal := by
  intro m ρ m' ρ' _ hagree
  refine ⟨fun c => fun j : Cert.KernelIdeal.S4x2048x4096.Idx => Cert.Mlp.layer3 (B := 4) (S := 2048) (K := 4096) (N := 11008) (H := 4096)
      (m ((c : Thread Cert.KernelIdeal.nD Cert.KernelIdeal.τ).loc Cert.KernelIdeal.main_arg0)) (Cert.KernelIdeal.Result.deqHidden (F := Ideal) (m ((c : Thread Cert.KernelIdeal.nD Cert.KernelIdeal.τ).loc Cert.KernelIdeal.main_arg1)) (m ((c : Thread Cert.KernelIdeal.nD Cert.KernelIdeal.τ).loc Cert.KernelIdeal.main_arg4))) (Cert.KernelIdeal.Result.deqHidden (F := Ideal) (m ((c : Thread Cert.KernelIdeal.nD Cert.KernelIdeal.τ).loc Cert.KernelIdeal.main_arg2)) (m ((c : Thread Cert.KernelIdeal.nD Cert.KernelIdeal.τ).loc Cert.KernelIdeal.main_arg5)))
      (Cert.KernelIdeal.Result.deqOut (F := Ideal) (m ((c : Thread Cert.KernelIdeal.nD Cert.KernelIdeal.τ).loc Cert.KernelIdeal.main_arg3)) (m ((c : Thread Cert.KernelIdeal.nD Cert.KernelIdeal.τ).loc Cert.KernelIdeal.main_arg6))) (j 0) (j 1) (j 2), ?_, ?_⟩
  · exact Cert.KernelIdeal.Whole.run_all (F := Ideal) m ρ (fun s h c =>
      ⟨(h c _ (Cert.KernelIdeal.Gen.mem_uc Cert.KernelIdeal.main_v18 (by decide))).trans (Cert.KernelIdeal.Result.result m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c)⟩)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.result_eq, deqHidden_eq, deqHidden_eq', deqOut_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
